-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x1024 : Shape := ⟨3, ![1024, 16, 1024]⟩
abbrev S2048x16x1024 : Shape := ⟨3, ![2048, 16, 1024]⟩
abbrev S1024x1024 : Shape := ⟨2, ![1024, 1024]⟩
abbrev S1024x2048 : Shape := ⟨2, ![1024, 2048]⟩
abbrev S_ : Shape := ⟨0, ![]⟩

class Facts : Prop where
  bcast_S_S1024x16x1024 : S_.BroadcastsInDim S1024x16x1024 (![] : Fin 0 → Fin S1024x16x1024.rank)
  reducesTo_S1024x16x1024_S_d0_1_2 : S1024x16x1024.ReducesTo [0, 1, 2] S_
  h_S_ : 0 < S_.numel
  bcast_S_S2048x16x1024 : S_.BroadcastsInDim S2048x16x1024 (![] : Fin 0 → Fin S2048x16x1024.rank)
  reducesTo_S2048x16x1024_S_d0_1_2 : S2048x16x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S1024x16x1024 .f32) (main_arg1 : FVec F S2048x16x1024 .f32) (main_arg2 : FVec F S1024x1024 .f32) (main_arg3 : FVec F S1024x2048 .f32) : IVec S_ 1 :=
  let main_v0 : FVec F S1024x16x1024 .f32 := Host.absf main_arg0
  let main_cst : FVec F S_ .f32 := constant S_ .f32 0x7F800000#32
  let main_v1 : FVec F S1024x16x1024 .f32 := broadcastInDim S1024x16x1024 ![] bcast_S_S1024x16x1024 main_cst
  let main_v2 : IVec S1024x16x1024 1 := cmpf .olt main_v0 main_v1
  let main_c : IVec S_ 1 := constantI S_ 1 1#1
  let main_v3 : IVec S_ 1 := (fun x v => Host.reduce IntOp.andi x v reducesTo_S1024x16x1024_S_d0_1_2 h_S_) main_v2 main_c
  let main_v4 : FVec F S2048x16x1024 .f32 := Host.absf main_arg1
  let main_cst_0 : FVec F S_ .f32 := constant S_ .f32 0x7F800000#32
  let main_v5 : FVec F S2048x16x1024 .f32 := broadcastInDim S2048x16x1024 ![] bcast_S_S2048x16x1024 main_cst_0
  let main_v6 : IVec S2048x16x1024 1 := cmpf .olt main_v4 main_v5
  let main_c_1 : IVec S_ 1 := constantI S_ 1 1#1
  let main_v7 : IVec S_ 1 := (fun x v => Host.reduce IntOp.andi x v reducesTo_S2048x16x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S1024x16x1024 : Shape := ⟨3, ![1024, 16, 1024]⟩
abbrev S2048x16x1024 : Shape := ⟨3, ![2048, 16, 1024]⟩
abbrev S1024x1024 : Shape := ⟨2, ![1024, 1024]⟩
abbrev S1024x2048 : Shape := ⟨2, ![1024, 2048]⟩
abbrev S16x1024x1024 : Shape := ⟨3, ![16, 1024, 1024]⟩
abbrev S16x2048x1024 : Shape := ⟨3, ![16, 2048, 1024]⟩
abbrev S16x1024x2048 : Shape := ⟨3, ![16, 1024, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S1024x16x1024, .f32⟩
  | .hbm, ⟨1, _⟩ => ⟨S2048x16x1024, .f32⟩
  | .hbm, ⟨2, _⟩ => ⟨S1024x1024, .f32⟩
  | .hbm, ⟨3, _⟩ => ⟨S1024x2048, .f32⟩
  | .hbm, ⟨4, _⟩ => ⟨S16x1024x1024, .f32⟩
  | .hbm, ⟨5, _⟩ => ⟨S16x1024x1024, .bf16⟩
  | .hbm, ⟨6, _⟩ => ⟨S16x2048x1024, .f32⟩
  | .hbm, ⟨7, _⟩ => ⟨S16x2048x1024, .bf16⟩
  | .hbm, ⟨8, _⟩ => ⟨S1024x1024, .bf16⟩
  | .hbm, ⟨9, _⟩ => ⟨S1024x2048, .bf16⟩
  | .hbm, ⟨10, _⟩ => ⟨S16x1024x1024, .f32⟩
  | .hbm, ⟨11, _⟩ => ⟨S16x1024x2048, .f32⟩
  | .hbm, ⟨12, _⟩ => ⟨S1024x16x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x2048, .f32⟩
  | .local _ .vmem, ⟨9, _⟩ => ⟨S1x256x2048, .f32⟩
  | _, _ => ⟨S1024x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S1024x16x1024_S16x1024x1024_1_0_2 : S1024x16x1024.Transposes [1, 0, 2] S16x1024x1024
  bitsLt_bf16_f32 : FTy.bits .bf16 < FTy.bits .f32
  transposes_S2048x16x1024_S16x2048x1024_1_0_2 : S2048x16x1024.Transposes [1, 0, 2] S16x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  concatenates_S256x1024_S256x1024_S256x2048_d1 : Shape.Concatenates [S256x1024, S256x1024] S256x2048 1
  shapeCasts_S256x1024_S1x256x1024 : S256x1024.ShapeCasts S1x256x1024
  transposes_S16x1024x1024_S1024x16x1024_1_0_2 : S16x1024x1024.Transposes [1, 0, 2] S1024x16x1024
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .bf16 = 32 ∨ (Rect.block (s := S16x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .bf16 = 32 ∨ (Rect.block (s := S16x2048x1024) S1x2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x1024x1024.size a
  hwx0_4 : ∀ i : grid0.Coords, EltTy.bits .f32 = 32 ∨ (Rect.block (s := S16x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x1024x2048.size a
  hwx0_5 : ∀ i : grid0.Coords, EltTy.bits .f32 = 32 ∨ (Rect.block (s := S16x1024x2048) S1x256x2048.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x16x1024 : Shape := ⟨3, ![1024, 16, 1024]⟩
abbrev S2048x16x1024 : Shape := ⟨3, ![2048, 16, 1024]⟩
abbrev S1024x1024 : Shape := ⟨2, ![1024, 1024]⟩
abbrev S1024x2048 : Shape := ⟨2, ![1024, 2048]⟩
abbrev S16x1024x1024 : Shape := ⟨3, ![16, 1024, 1024]⟩
abbrev S16x2048x1024 : Shape := ⟨3, ![16, 2048, 1024]⟩
abbrev S16x1024x2048 : Shape := ⟨3, ![16, 1024, 2048]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S1024x16x1024, .f32⟩
  | .hbm, ⟨1, _⟩ => ⟨S2048x16x1024, .f32⟩
  | .hbm, ⟨2, _⟩ => ⟨S1024x1024, .f32⟩
  | .hbm, ⟨3, _⟩ => ⟨S1024x2048, .f32⟩
  | .hbm, ⟨4, _⟩ => ⟨S16x1024x1024, .f32⟩
  | .hbm, ⟨5, _⟩ => ⟨S16x2048x1024, .f32⟩
  | .hbm, ⟨6, _⟩ => ⟨S16x1024x1024, .f32⟩
  | .hbm, ⟨7, _⟩ => ⟨S16x1024x2048, .f32⟩
  | .hbm, ⟨8, _⟩ => ⟨S_, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024x1, .f32⟩
  | .hbm, ⟨14, _⟩ => ⟨S16x1024x2048, .f32⟩
  | .hbm, ⟨15, _⟩ => ⟨S16x1024x2048, .f32⟩
  | .hbm, ⟨16, _⟩ => ⟨S16x1024x2048, .f32⟩
  | .hbm, ⟨17, _⟩ => ⟨S_, .f32⟩
  | .hbm, ⟨18, _⟩ => ⟨S16x1024, .f32⟩
  | .hbm, ⟨19, _⟩ => ⟨S16x1024x1, .f32⟩
  | .hbm, ⟨20, _⟩ => ⟨S16x1024x2048, .f32⟩
  | .hbm, ⟨21, _⟩ => ⟨S16x1024x2048, .f32⟩
  | .hbm, ⟨22, _⟩ => ⟨S16x1024x1024, .f32⟩
  | .hbm, ⟨23, _⟩ => ⟨S16x1024x2048, .f32⟩
  | .hbm, ⟨24, _⟩ => ⟨S16x1024x1024, .f32⟩
  | .hbm, ⟨25, _⟩ => ⟨S16x1024x1024, .f32⟩
  | .hbm, ⟨26, _⟩ => ⟨S1024x16x1024, .f32⟩
  | _, _ => ⟨S1024x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S1024x16x1024_S16x1024x1024_1_0_2 : S1024x16x1024.Transposes [1, 0, 2] S16x1024x1024
  transposes_S2048x16x1024_S16x2048x1024_1_0_2 : S2048x16x1024.Transposes [1, 0, 2] S16x2048x1024
  reducesTo_S16x1024x2048_S16x1024_d2 : S16x1024x2048.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x2048_0_1_2 : S16x1024x1.BroadcastsInDim S16x1024x2048 (![0, 1, 2] : Fin 3 → Fin S16x1024x2048.rank)
  concatenates_S16x1024x1024_S16x1024x1024_S16x1024x2048_d2 : Shape.Concatenates [S16x1024x1024, S16x1024x1024] S16x1024x2048 2
  transposes_S16x1024x1024_S1024x16x1024_1_0_2 : S16x1024x1024.Transposes [1, 0, 2] S1024x16x1024
  dot_S16x1024x1024_S1024x1024_S16x1024x1024_2_1_01_0_n_n_wf : DotDims.WF S16x1024x1024 S1024x1024 S16x1024x1024 [2] [1] [0, 1] [0] [] []
  dot_S16x1024x1024_S16x2048x1024_S16x1024x2048_2_2_1_1_0_0_wf : DotDims.WF S16x1024x1024 S16x2048x1024 S16x1024x2048 [2] [2] [1] [1] [0] [0]
  dot_S16x1024x2048_S16x2048x1024_S16x1024x1024_2_1_1_2_0_0_wf : DotDims.WF S16x1024x2048 S16x2048x1024 S16x1024x1024 [2] [1] [1] [2] [0] [0]
  dot_S16x1024x2048_S1024x2048_S16x1024x1024_2_1_01_0_n_n_wf : DotDims.WF S16x1024x2048 S1024x2048 S16x1024x1024 [2] [1] [0, 1] [0] [] []

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x2048x1024_S16x1024x2048_2_2_1_1_0_0 : DotDims S16x1024x1024 S16x2048x1024 S16x1024x2048 where
  lhsContracting := [2]
  rhsContracting := [2]
  lhsNonContracting := [1]
  rhsNonContracting := [1]
  lhsBatch := [0]
  rhsBatch := [0]
  wf := dot_S16x1024x1024_S16x2048x1024_S16x1024x2048_2_2_1_1_0_0_wf
def dot_S16x1024x2048_S16x2048x1024_S16x1024x1024_2_1_1_2_0_0 : DotDims S16x1024x2048 S16x2048x1024 S16x1024x1024 where
  lhsContracting := [2]
  rhsContracting := [1]
  lhsNonContracting := [1]
  rhsNonContracting := [2]
  lhsBatch := [0]
  rhsBatch := [0]
  wf := dot_S16x1024x2048_S16x2048x1024_S16x1024x1024_2_1_1_2_0_0_wf
def dot_S16x1024x2048_S1024x2048_S16x1024x1024_2_1_01_0_n_n : DotDims S16x1024x2048 S1024x2048 S16x1024x1024 where
  lhsContracting := [2]
  rhsContracting := [1]
  lhsNonContracting := [0, 1]
  rhsNonContracting := [0]
  lhsBatch := []
  rhsBatch := []
  wf := dot_S16x1024x2048_S1024x2048_S16x1024x1024_2_1_01_0_n_n_wf

class Facts : Prop extends Facts₀ where

variable [Facts]
-- ==== Proof.Spec.lean ====
/-
  The mathematics both programs compute, for ONE query row.

  Both programs are a single-head attention layer over a batch of 16 sequences: a query row `q` (1024 numbers) is
  projected by `W_in`, scored against the 2048 context rows of its batch entry, the scores normalised by a softmax
  (maximum subtracted first), the context rows averaged with those weights, the average joined with the projected
  query, projected by `W_out` and passed through `tanh`. A result element depends on one query row, the context
  rows of that row's batch entry, and the two weight matrices — so everything is stated for one row, over plain
  functions of coordinates, on the extended reals. Sums are `Finset` sums (no order), the maximum is a fold of `max`
  from the literal `-∞` word over all 2048 scores.

  `scoreOf` and `outOf` are the two result arrays as whole-array functions of the four argument arrays.
-/
import Idealize.ShloMosaic.PureOps.Ideal
import Idealize.ShloMosaic.Lib.ValueIdx

noncomputable section

namespace Cert.Attn

open Idealize.ShloMosaic Idealize.ShloMosaic.ValueIdx

/-- The projected query row: `(q · W_inᵀ) e = ∑ d, q d · W_in e d`. -/
def rowProj (q : Fin 1024 → EReal) (win : Fin 1024 → Fin 1024 → EReal) (e : Fin 1024) : EReal :=
  ∑ d : Fin 1024, q d * win e d

/-- The row's score against context row `k`: `∑ d, proj d · C k d`. -/
def rowLogit (q : Fin 1024 → EReal) (win : Fin 1024 → Fin 1024 → EReal) (C : Fin 2048 → Fin 1024 → EReal) (k : Fin 2048) : EReal :=
  ∑ d : Fin 1024, rowProj q win d * C k d

/-- The largest score of the row (the fold of `max` from `-∞`, the word `0xFF800000`). -/
def rowMax (q : Fin 1024 → EReal) (win : Fin 1024 → Fin 1024 → EReal) (C : Fin 2048 → Fin 1024 → EReal) : EReal :=
  (Finset.univ : Finset (Fin 2048)).fold max (Ideal.ofBits .f32 0xFF800000#32) (rowLogit q win C)

/-- `exp (score − largest score)`. -/
def rowExp (q : Fin 1024 → EReal) (win : Fin 1024 → Fin 1024 → EReal) (C : Fin 2048 → Fin 1024 → EReal) (k : Fin 2048) : EReal :=
  Ideal.exp (rowLogit q win C k - rowMax q win C)

/-- The softmax's denominator. -/
def rowSum (q : Fin 1024 → EReal) (win : Fin 1024 → Fin 1024 → EReal) (C : Fin 2048 → Fin 1024 → EReal) : EReal :=
  ∑ k : Fin 2048, rowExp q win C k

/-- The attention weight of context row `k`: the FIRST result. -/
def rowProb (q : Fin 1024 → EReal) (win : Fin 1024 → Fin 1024 → EReal) (C : Fin 2048 → Fin 1024 → EReal) (k : Fin 2048) : EReal :=
  Ideal.div (rowExp q win C k) (rowSum q win C)

/-- The weighted average of the context rows. -/
def rowCtx (q : Fin 1024 → EReal) (win : Fin 1024 → Fin 1024 → EReal) (C : Fin 2048 → Fin 1024 → EReal) (d : Fin 1024) : EReal :=
  ∑ k : Fin 2048, rowProb q win C k * C k d

/-- The average joined with the projected query: 2048 numbers, the average first. -/
def rowCat (q : Fin 1024 → EReal) (win : Fin 1024 → Fin 1024 → EReal) (C : Fin 2048 → Fin 1024 → EReal) (f : Fin 2048) : EReal :=
  if h : f.val < 1024 then rowCtx q win C ⟨f.val, h⟩ else rowProj q win ⟨f.val - 1024, by have := f.isLt; omega⟩

/-- The SECOND result (before it is laid out): `tanh (∑ f, cat f · W_out d f)`. -/
def rowOut (q : Fin 1024 → EReal) (win : Fin 1024 → Fin 1024 → EReal) (C : Fin 2048 → Fin 1024 → EReal)
    (wout : Fin 1024 → Fin 2048 → EReal) (d : Fin 1024) : EReal :=
  Ideal.tanh (∑ f : Fin 2048, rowCat q win C f * wout d f)

/-! ## The two result arrays as functions of the four argument arrays -/

/-- Query row `r` of batch entry `b` of the query array `[1024, 16, 1024]` (row-major: row, batch, feature). -/
abbrev qRow (A0 : FVec Ideal ⟨3, ![1024, 16, 1024]⟩ .f32) (b : Fin 16) (r : Fin 1024) : Fin 1024 → EReal :=
  fun d => A0 (ix3 r b d)
/-- The context rows of batch entry `b` of the context array `[2048, 16, 1024]`. -/
abbrev cRows (A1 : FVec Ideal ⟨3, ![2048, 16, 1024]⟩ .f32) (b : Fin 16) : Fin 2048 → Fin 1024 → EReal :=
  fun k d => A1 (ix3 k b d)
/-- A weight matrix by coordinates. -/
abbrev mat {n0 n1 : Nat} (A : FVec Ideal ⟨2, ![n0, n1]⟩ .f32) : Fin n0 → Fin n1 → EReal :=
  fun e d => A (ix2 e d)

/-- The attention weights `[16, 1024, 2048]`: at (batch `b`, row `r`, context row `k`). -/
def scoreOf (A0 : FVec Ideal ⟨3, ![1024, 16, 1024]⟩ .f32) (A1 : FVec Ideal ⟨3, ![2048, 16, 1024]⟩ .f32)
    (A2 : FVec Ideal ⟨2, ![1024, 1024]⟩ .f32) : FVec Ideal ⟨3, ![16, 1024, 2048]⟩ .f32 :=
  fun i => rowProb (qRow A0 ⟨(i 0).val, (i 0).isLt⟩ ⟨(i 1).val, (i 1).isLt⟩) (mat A2) (cRows A1 ⟨(i 0).val, (i 0).isLt⟩) ⟨(i 2).val, (i 2).isLt⟩

/-- The layer's output `[1024, 16, 1024]`: at (row `r`, batch `b`, feature `d`). -/
def outOf (A0 : FVec Ideal ⟨3, ![1024, 16, 1024]⟩ .f32) (A1 : FVec Ideal ⟨3, ![2048, 16, 1024]⟩ .f32)
    (A2 : FVec Ideal ⟨2, ![1024, 1024]⟩ .f32) (A3 : FVec Ideal ⟨2, ![1024, 2048]⟩ .f32) : FVec Ideal ⟨3, ![1024, 16, 1024]⟩ .f32 :=
  fun i => rowOut (qRow A0 ⟨(i 1).val, (i 1).isLt⟩ ⟨(i 0).val, (i 0).isLt⟩) (mat A2) (cRows A1 ⟨(i 1).val, (i 1).isLt⟩) (mat A3) ⟨(i 2).val, (i 2).isLt⟩

/-- The same output before the final re-layout, batch-major `[16, 1024, 1024]`: at (batch `b`, row `r`, feature `d`). -/
def outBatchMajor (A0 : FVec Ideal ⟨3, ![1024, 16, 1024]⟩ .f32) (A1 : FVec Ideal ⟨3, ![2048, 16, 1024]⟩ .f32)
    (A2 : FVec Ideal ⟨2, ![1024, 1024]⟩ .f32) (A3 : FVec Ideal ⟨2, ![1024, 2048]⟩ .f32) : FVec Ideal ⟨3, ![16, 1024, 1024]⟩ .f32 :=
  fun i => rowOut (qRow A0 ⟨(i 0).val, (i 0).isLt⟩ ⟨(i 1).val, (i 1).isLt⟩) (mat A2) (cRows A1 ⟨(i 0).val, (i 0).isLt⟩) (mat A3) ⟨(i 2).val, (i 2).isLt⟩

theorem scoreOf_ix3 (A0 : FVec Ideal ⟨3, ![1024, 16, 1024]⟩ .f32) (A1 : FVec Ideal ⟨3, ![2048, 16, 1024]⟩ .f32)
    (A2 : FVec Ideal ⟨2, ![1024, 1024]⟩ .f32) (b : Fin 16) (r : Fin 1024) (k : Fin 2048) :
    scoreOf A0 A1 A2 (ix3 b r k) = rowProb (qRow A0 b r) (mat A2) (cRows A1 b) k := rfl

theorem outOf_ix3 (A0 : FVec Ideal ⟨3, ![1024, 16, 1024]⟩ .f32) (A1 : FVec Ideal ⟨3, ![2048, 16, 1024]⟩ .f32)
    (A2 : FVec Ideal ⟨2, ![1024, 1024]⟩ .f32) (A3 : FVec Ideal ⟨2, ![1024, 2048]⟩ .f32) (r : Fin 1024) (b : Fin 16) (d : Fin 1024) :
    outOf A0 A1 A2 A3 (ix3 r b d) = rowOut (qRow A0 b r) (mat A2) (cRows A1 b) (mat A3) d := rfl

theorem outBatchMajor_ix3 (A0 : FVec Ideal ⟨3, ![1024, 16, 1024]⟩ .f32) (A1 : FVec Ideal ⟨3, ![2048, 16, 1024]⟩ .f32)
    (A2 : FVec Ideal ⟨2, ![1024, 1024]⟩ .f32) (A3 : FVec Ideal ⟨2, ![1024, 2048]⟩ .f32) (b : Fin 16) (r : Fin 1024) (d : Fin 1024) :
    outBatchMajor A0 A1 A2 A3 (ix3 b r d) = rowOut (qRow A0 b r) (mat A2) (cRows A1 b) (mat A3) d := rfl

end Cert.Attn

end
-- ==== Proof.RefIs.lean ====
/-
  The reference program computes the specification: its two results, read one operation at a time at an index,
  are `scoreOf` and `outOf` of its argument arrays.
-/
import proofs.«131159_j50233937494279_2_alg».proof.Proof.Gen.ReferenceIdeal.Read
import proofs.«131159_j50233937494279_2_alg».proof.Proof.Spec
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx Cert.Attn

/-! ## The stages at explicit coordinates

Every stage is read at an index built from its coordinates (batch entry `b`, query row `r`, and a feature or context
coordinate); the index functions of the stage lemmas are identified with `ix2` / `ix3` axis by axis. -/

/-- The query array, batch-major: entry `(b, r, d)` is entry `(r, b, d)` of the argument. -/
theorem v0_at (x0 : FVec Ideal S1024x16x1024 .f32) (b : Fin 16) (r : Fin 1024) (d : Fin 1024) :
    val_main_v0 (F := Ideal) x0 (ix3 b r d) = x0 (ix3 r b d) := by
  rw [val_main_v0_apply]
  exact congrArg x0 (funext fun a => by match a with | ⟨0, _⟩ => rfl | ⟨1, _⟩ => rfl | ⟨2, _⟩ => rfl)

/-- The context array, batch-major: entry `(b, k, d)` is entry `(k, b, d)` of the argument. -/
theorem v1_at (x1 : FVec Ideal S2048x16x1024 .f32) (b : Fin 16) (k : Fin 2048) (d : Fin 1024) :
    val_main_v1 (F := Ideal) x1 (ix3 b k d) = x1 (ix3 k b d) := by
  rw [val_main_v1_apply]
  exact congrArg x1 (funext fun a => by match a with | ⟨0, _⟩ => rfl | ⟨1, _⟩ => rfl | ⟨2, _⟩ => rfl)

/-- The projected query row. -/
theorem v2_at (x0 : FVec Ideal S1024x16x1024 .f32) (x2 : FVec Ideal S1024x1024 .f32) (b : Fin 16) (r : Fin 1024) (e : Fin 1024) :
    val_main_v2 (F := Ideal) x0 x2 (ix3 b r e) = rowProj (qRow x0 b r) (mat x2) e := by
  rw [val_main_v2_apply]
  unfold rowProj
  refine Finset.sum_congr rfl fun d _ => ?_
  have hl : lidx_main_v2 (ix3 b r e) d = ix3 b r d :=
    funext fun a => by match a with | ⟨0, _⟩ => rfl | ⟨1, _⟩ => rfl | ⟨2, _⟩ => rfl
  have hr : ridx_main_v2 (ix3 b r e) d = ix2 e d :=
    funext fun a => by match a with | ⟨0, _⟩ => rfl | ⟨1, _⟩ => rfl
  rw [hl, hr, v0_at]

/-- The row's score against context row `k`. -/
theorem v3_at (x0 : FVec Ideal S1024x16x1024 .f32) (x1 : FVec Ideal S2048x16x1024 .f32) (x2 : FVec Ideal S1024x1024 .f32)
    (b : Fin 16) (r : Fin 1024) (k : Fin 2048) :
    val_main_v3 (F := Ideal) x0 x1 x2 (ix3 b r k) = rowLogit (qRow x0 b r) (mat x2) (cRows x1 b) k := by
  rw [val_main_v3_apply]
  unfold rowLogit
  refine Finset.sum_congr rfl fun d _ => ?_
  have hl : lidx_main_v3 (ix3 b r k) d = ix3 b r d :=
    funext fun a => by match a with | ⟨0, _⟩ => rfl | ⟨1, _⟩ => rfl | ⟨2, _⟩ => rfl
  have hr : ridx_main_v3 (ix3 b r k) d = ix3 b k d :=
    funext fun a => by match a with | ⟨0, _⟩ => rfl | ⟨1, _⟩ => rfl | ⟨2, _⟩ => rfl
  rw [hl, hr, v2_at, v1_at]

/-- The maximum of `-∞` (the word `0xFF800000`) and `y` is `y`. -/
theorem max_negInf (y : EReal) : max (Ideal.ofBits .f32 0xFF800000#32) y = y := by
  simp [Ideal.ofBits, Ideal.ieee]

/-- The score index over `(b, r)` whose context coordinate is `k`. -/
theorem lift_ix3 (h : S16x1024x2048.Reduces [2] S16x1024) (b : Fin 16) (r : Fin 1024) (k : Fin (S16x1024x2048.size 2)) :
    h.lift (ix2 b r) k = ix3 b r (⟨k.val, k.isLt⟩ : Fin 2048) := by
  funext c; apply Fin.ext
  match c with
  | ⟨0, _⟩ => rfl
  | ⟨1, _⟩ => rfl
  | ⟨2, _⟩ => rfl

/-- The largest score of the row: the reduction over the context axis is the fold of `max` from `-∞` over the row's
    2048 scores. -/
theorem v4_at (x0 : FVec Ideal S1024x16x1024 .f32) (x1 : FVec Ideal S2048x16x1024 .f32) (x2 : FVec Ideal S1024x1024 .f32)
    (b : Fin 16) (r : Fin 1024) :
    val_main_v4 (F := Ideal) x0 x1 x2 (ix2 b r) = rowMax (qRow x0 b r) (mat x2) (cRows x1 b) := by
  have hred : S16x1024x2048.Reduces [2] S16x1024 := by decide
  unfold val_main_v4
  have key := Host.reduce_eq_fold_single (α := Ideal .f32) (s := S16x1024x2048) (t := S16x1024) (a := (2 : Fin 3)) (u := S_)
    (FloatOps.maximumf (F := Ideal) (φ := .f32)) (val_main_v3 (F := Ideal) x0 x1 x2) (val_main_cst (F := Ideal))
    reducesTo_S16x1024x2048_S16x1024_d2 hred h_S_ (ix2 b r)
  refine key.trans ?_
  unfold rowMax
  have hf : (val_main_v3 (F := Ideal) x0 x1 x2 ∘ hred.lift (ix2 b r))
      = fun k : Fin 2048 => rowLogit (qRow x0 b r) (mat x2) (cRows x1 b) k :=
    funext fun k => (congrArg (val_main_v3 (F := Ideal) x0 x1 x2) (lift_ix3 hred b r k)).trans (v3_at x0 x1 x2 b r _)
  exact congrArg (fun f => Finset.fold max (Ideal.ofBits .f32 0xFF800000#32) f (Finset.univ : Finset (Fin 2048))) hf

/-- The reference takes the maximum of `-∞` and that fold: the fold again. -/
theorem v6_at (x0 : FVec Ideal S1024x16x1024 .f32) (x1 : FVec Ideal S2048x16x1024 .f32) (x2 : FVec Ideal S1024x1024 .f32)
    (b : Fin 16) (r : Fin 1024) :
    val_main_v6 (F := Ideal) x0 x1 x2 (ix2 b r) = rowMax (qRow x0 b r) (mat x2) (cRows x1 b) := by
  rw [val_main_v6_apply, val_main_v5_apply, val_main_cst_0_apply, v4_at]
  exact max_negInf _

/-- The largest score, repeated along the context axis. -/
theorem v8_at (x0 : FVec Ideal S1024x16x1024 .f32) (x1 : FVec Ideal S2048x16x1024 .f32) (x2 : FVec Ideal S1024x1024 .f32)
    (b : Fin 16) (r : Fin 1024) (k : Fin 2048) :
    val_main_v8 (F := Ideal) x0 x1 x2 (ix3 b r k) = rowMax (qRow x0 b r) (mat x2) (cRows x1 b) := by
  rw [val_main_v8_apply, val_main_v7_apply]
  have hi : idx_main_v7 (idx_main_v8 (ix3 b r k)) = ix2 b r :=
    funext fun a => by match a with | ⟨0, _⟩ => rfl | ⟨1, _⟩ => rfl
  rw [hi, v6_at]

/-- The score less the largest score. -/
theorem v9_at (x0 : FVec Ideal S1024x16x1024 .f32) (x1 : FVec Ideal S2048x16x1024 .f32) (x2 : FVec Ideal S1024x1024 .f32)
    (b : Fin 16) (r : Fin 1024) (k : Fin 2048) :
    val_main_v9 (F := Ideal) x0 x1 x2 (ix3 b r k)
      = rowLogit (qRow x0 b r) (mat x2) (cRows x1 b) k - rowMax (qRow x0 b r) (mat x2) (cRows x1 b) := by
  rw [val_main_v9_apply, v3_at, v8_at]
  rfl

/-- Its exponential. -/
theorem v10_at (x0 : FVec Ideal S1024x16x1024 .f32) (x1 : FVec Ideal S2048x16x1024 .f32) (x2 : FVec Ideal S1024x1024 .f32)
    (b : Fin 16) (r : Fin 1024) (k : Fin 2048) :
    val_main_v10 (F := Ideal) x0 x1 x2 (ix3 b r k) = rowExp (qRow x0 b r) (mat x2) (cRows x1 b) k := by
  rw [val_main_v10_apply, v9_at]
  rfl

/-- The softmax's denominator: zero plus the sum of the row's exponentials. -/
theorem v11_at (x0 : FVec Ideal S1024x16x1024 .f32) (x1 : FVec Ideal S2048x16x1024 .f32) (x2 : FVec Ideal S1024x1024 .f32)
    (b : Fin 16) (r : Fin 1024) :
    val_main_v11 (F := Ideal) x0 x1 x2 (ix2 b r) = rowSum (qRow x0 b r) (mat x2) (cRows x1 b) := by
  rw [val_main_v11_apply, val_main_cst_1_apply]
  show Ideal.ofBits .f32 0x00000000#32 + _ = _
  rw [Ideal.ofBits_zero_f32, zero_add]
  unfold rowSum
  refine Finset.sum_congr rfl fun k _ => ?_
  have hi : idx_main_v11 (ix2 b r) k = ix3 b r k :=
    funext fun a => by match a with | ⟨0, _⟩ => rfl | ⟨1, _⟩ => rfl | ⟨2, _⟩ => rfl
  rw [hi, v10_at]

/-- The denominator, repeated along the context axis. -/
theorem v13_at (x0 : FVec Ideal S1024x16x1024 .f32) (x1 : FVec Ideal S2048x16x1024 .f32) (x2 : FVec Ideal S1024x1024 .f32)
    (b : Fin 16) (r : Fin 1024) (k : Fin 2048) :
    val_main_v13 (F := Ideal) x0 x1 x2 (ix3 b r k) = rowSum (qRow x0 b r) (mat x2) (cRows x1 b) := by
  rw [val_main_v13_apply, val_main_v12_apply]
  have hi : idx_main_v12 (idx_main_v13 (ix3 b r k)) = ix2 b r :=
    funext fun a => by match a with | ⟨0, _⟩ => rfl | ⟨1, _⟩ => rfl
  rw [hi, v11_at]

/-- The attention weight: the first result at `(b, r, k)`. -/
theorem v14_at (x0 : FVec Ideal S1024x16x1024 .f32) (x1 : FVec Ideal S2048x16x1024 .f32) (x2 : FVec Ideal S1024x1024 .f32)
    (b : Fin 16) (r : Fin 1024) (k : Fin 2048) :
    val_main_v14 (F := Ideal) x0 x1 x2 (ix3 b r k) = rowProb (qRow x0 b r) (mat x2) (cRows x1 b) k := by
  rw [val_main_v14_apply, v10_at, v13_at]
  rfl

/-- The weighted average of the context rows. -/
theorem v15_at (x0 : FVec Ideal S1024x16x1024 .f32) (x1 : FVec Ideal S2048x16x1024 .f32) (x2 : FVec Ideal S1024x1024 .f32)
    (b : Fin 16) (r : Fin 1024) (d : Fin 1024) :
    val_main_v15 (F := Ideal) x0 x1 x2 (ix3 b r d) = rowCtx (qRow x0 b r) (mat x2) (cRows x1 b) d := by
  rw [val_main_v15_apply]
  unfold rowCtx
  refine Finset.sum_congr rfl fun k _ => ?_
  have hl : lidx_main_v15 (ix3 b r d) k = ix3 b r k :=
    funext fun a => by match a with | ⟨0, _⟩ => rfl | ⟨1, _⟩ => rfl | ⟨2, _⟩ => rfl
  have hr : ridx_main_v15 (ix3 b r d) k = ix3 b k d :=
    funext fun a => by match a with | ⟨0, _⟩ => rfl | ⟨1, _⟩ => rfl | ⟨2, _⟩ => rfl
  rw [hl, hr, v14_at, v1_at]

/-- The average joined with the projected query along the feature axis: below 1024 the average, from 1024 on the
    projection at the coordinate less 1024. -/
theorem v16_at (x0 : FVec Ideal S1024x16x1024 .f32) (x1 : FVec Ideal S2048x16x1024 .f32) (x2 : FVec Ideal S1024x1024 .f32)
    (b : Fin 16) (r : Fin 1024) (f : Fin 2048) :
    val_main_v16 (F := Ideal) x0 x1 x2 (ix3 b r f) = rowCat (qRow x0 b r) (mat x2) (cRows x1 b) f := by
  unfold val_main_v16 rowCat
  by_cases h : f.val < 1024
  · rw [dif_pos h]
    refine (concatenate_pair_apply_left (2 : Fin S16x1024x2048.rank) (val_main_v15 (F := Ideal) x0 x1 x2) (val_main_v2 (F := Ideal) x0 x2)
      concatenates_S16x1024x1024_S16x1024x1024_S16x1024x2048_d2 (ix3 b r f) rfl (ix3 b r (⟨f.val, h⟩ : Fin 1024))
      (fun c => by match c with | ⟨0, _⟩ => rfl | ⟨1, _⟩ => rfl | ⟨2, _⟩ => rfl)).trans ?_
    exact v15_at x0 x1 x2 b r _
  · rw [dif_neg h]
    refine (concatenate_pair_apply_right (2 : Fin S16x1024x2048.rank) (val_main_v15 (F := Ideal) x0 x1 x2) (val_main_v2 (F := Ideal) x0 x2)
      concatenates_S16x1024x1024_S16x1024x1024_S16x1024x2048_d2 (ix3 b r f) rfl rfl
      (ix3 b r (⟨f.val - 1024, by have := f.isLt; omega⟩ : Fin 1024))
      (fun c => by
        match c with
        | ⟨0, _⟩ => exact fun _ => rfl
        | ⟨1, _⟩ => exact fun _ => rfl
        | ⟨2, _⟩ => exact fun hc => absurd rfl hc)
      (by show f.val - 1024 + 1024 = f.val; omega)).trans ?_
    exact v2_at x0 x2 b r _

/-- The output projection before `tanh`. -/
theorem v17_at (x0 : FVec Ideal S1024x16x1024 .f32) (x1 : FVec Ideal S2048x16x1024 .f32) (x2 : FVec Ideal S1024x1024 .f32)
    (x3 : FVec Ideal S1024x2048 .f32) (b : Fin 16) (r : Fin 1024) (d : Fin 1024) :
    val_main_v17 (F := Ideal) x0 x1 x2 x3 (ix3 b r d)
      = ∑ f : Fin 2048, rowCat (qRow x0 b r) (mat x2) (cRows x1 b) f * mat x3 d f := by
  rw [val_main_v17_apply]
  refine Finset.sum_congr rfl fun f _ => ?_
  have hl : lidx_main_v17 (ix3 b r d) f = ix3 b r f :=
    funext fun a => by match a with | ⟨0, _⟩ => rfl | ⟨1, _⟩ => rfl | ⟨2, _⟩ => rfl
  have hr : ridx_main_v17 (ix3 b r d) f = ix2 d f :=
    funext fun a => by match a with | ⟨0, _⟩ => rfl | ⟨1, _⟩ => rfl
  rw [hl, hr, v16_at]

/-- The layer's output, batch-major. -/
theorem v18_at (x0 : FVec Ideal S1024x16x1024 .f32) (x1 : FVec Ideal S2048x16x1024 .f32) (x2 : FVec Ideal S1024x1024 .f32)
    (x3 : FVec Ideal S1024x2048 .f32) (b : Fin 16) (r : Fin 1024) (d : Fin 1024) :
    val_main_v18 (F := Ideal) x0 x1 x2 x3 (ix3 b r d) = rowOut (qRow x0 b r) (mat x2) (cRows x1 b) (mat x3) d := by
  rw [val_main_v18_apply, v17_at]
  rfl

/-- The layer's output laid out row-major: the second result at `(r, b, d)`. -/
theorem v19_at (x0 : FVec Ideal S1024x16x1024 .f32) (x1 : FVec Ideal S2048x16x1024 .f32) (x2 : FVec Ideal S1024x1024 .f32)
    (x3 : FVec Ideal S1024x2048 .f32) (r : Fin 1024) (b : Fin 16) (d : Fin 1024) :
    val_main_v19 (F := Ideal) x0 x1 x2 x3 (ix3 r b d) = rowOut (qRow x0 b r) (mat x2) (cRows x1 b) (mat x3) d := by
  rw [val_main_v19_apply]
  have hi : idx_main_v19 (ix3 r b d) = ix3 b r d :=
    funext fun a => by match a with | ⟨0, _⟩ => rfl | ⟨1, _⟩ => rfl | ⟨2, _⟩ => rfl
  rw [hi, v18_at]

/-! ## The two results as whole arrays -/

theorem score_eq (x0 : FVec Ideal S1024x16x1024 .f32) (x1 : FVec Ideal S2048x16x1024 .f32) (x2 : FVec Ideal S1024x1024 .f32) :
    val_main_v14 (F := Ideal) x0 x1 x2 = scoreOf x0 x1 x2 := by
  funext i
  obtain ⟨b, r, k, rfl⟩ : ∃ (b : Fin 16) (r : Fin 1024) (k : Fin 2048), i = ix3 b r k := ⟨i 0, i 1, i 2, eq_ix3 i⟩
  rw [scoreOf_ix3]
  exact v14_at x0 x1 x2 b r k

theorem out_eq (x0 : FVec Ideal S1024x16x1024 .f32) (x1 : FVec Ideal S2048x16x1024 .f32) (x2 : FVec Ideal S1024x1024 .f32)
    (x3 : FVec Ideal S1024x2048 .f32) :
    val_main_v19 (F := Ideal) x0 x1 x2 x3 = outOf x0 x1 x2 x3 := by
  funext i
  obtain ⟨r, b, d, rfl⟩ : ∃ (r : Fin 1024) (b : Fin 16) (d : Fin 1024), i = ix3 r b d := ⟨i 0, i 1, i 2, eq_ix3 i⟩
  rw [outOf_ix3]
  exact v19_at x0 x1 x2 x3 r b d

end Cert.Attn.Ref

end
-- ==== Proof.KDots.lean ====
/-
  The kernel body's four matrix products into a zero accumulator, read at an index on the extended reals: each
  is the finite sum over the contracted axis of the products of the operands' entries.
-/
import proofs.«131159_j50233937494279_2_alg».proof.Proof.Gen.KernelIdeal
import Idealize.ShloMosaic.Lib.ValueIdx
import Idealize.ShloMosaic.PureOps.Ideal.Laws

noncomputable section

namespace Cert.Attn.KOps

open Cert.KernelIdeal Idealize.ShloMosaic Idealize.ShloMosaic.ValueIdx

/-- The left operand's index: the output's row on axis 0 … -/
theorem lhs_qw_0 (j : S256x1024.Idx) (q : dot_S256x1024_S1024x1024_S256x1024_1_1_0_0_n_n.contr.Idx) :
    (dot_S256x1024_S1024x1024_S256x1024_1_1_0_0_n_n.lhsIdx j q 0).val = (j 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- … and the contraction coordinate on axis 1. -/
theorem lhs_qw_1 (j : S256x1024.Idx) (q : dot_S256x1024_S1024x1024_S256x1024_1_1_0_0_n_n.contr.Idx) :
    (dot_S256x1024_S1024x1024_S256x1024_1_1_0_0_n_n.lhsIdx j q 1).val = (q ⟨0, by decide⟩).val :=
  dot_S256x1024_S1024x1024_S256x1024_1_1_0_0_n_n.lhsIdx_val_of_single rfl j q
/-- The right operand's index: the output's column on axis 0 … -/
theorem rhs_qw_0 (j : S256x1024.Idx) (q : dot_S256x1024_S1024x1024_S256x1024_1_1_0_0_n_n.contr.Idx) :
    (dot_S256x1024_S1024x1024_S256x1024_1_1_0_0_n_n.rhsIdx j q 0).val = (j 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- … and the contraction coordinate on axis 1. -/
theorem rhs_qw_1 (j : S256x1024.Idx) (q : dot_S256x1024_S1024x1024_S256x1024_1_1_0_0_n_n.contr.Idx) :
    (dot_S256x1024_S1024x1024_S256x1024_1_1_0_0_n_n.rhsIdx j q 1).val = (q ⟨0, by decide⟩).val :=
  dot_S256x1024_S1024x1024_S256x1024_1_1_0_0_n_n.rhsIdx_val_of_single rfl j q

/-- Query block × `W_in`ᵀ: contracts the second axis of both. -/
theorem dot_qw (l : FVec Ideal S256x1024 .bf16) (r : FVec Ideal S1024x1024 .bf16) (i : Fin 256) (e : Fin 1024) :
    matmul dot_S256x1024_S1024x1024_S256x1024_1_1_0_0_n_n none l r (constant (F := Ideal) S256x1024 .f32 0x00000000#32) (ix2 i e)
      = ∑ d : Fin 1024, l (ix2 i d) * r (ix2 e d) := by
  simp only [matmul]
  rw [Ideal.matmul_constant_zero_apply, ← Equiv.sum_comp (contrEquiv1 dot_S256x1024_S1024x1024_S256x1024_1_1_0_0_n_n 1024 rfl rfl).symm]
  refine Finset.sum_congr rfl fun d _ => ?_
  have hk := contrEquiv1_symm_val dot_S256x1024_S1024x1024_S256x1024_1_1_0_0_n_n 1024 rfl rfl d
  have el : dot_S256x1024_S1024x1024_S256x1024_1_1_0_0_n_n.lhsIdx (ix2 i e) ((contrEquiv1 dot_S256x1024_S1024x1024_S256x1024_1_1_0_0_n_n 1024 rfl rfl).symm d) = ix2 i d := funext fun a => Fin.ext (by
    match a with
    | ⟨0, _⟩ => exact lhs_qw_0 _ _
    | ⟨1, _⟩ => exact (lhs_qw_1 _ _).trans hk)
  have er : dot_S256x1024_S1024x1024_S256x1024_1_1_0_0_n_n.rhsIdx (ix2 i e) ((contrEquiv1 dot_S256x1024_S1024x1024_S256x1024_1_1_0_0_n_n 1024 rfl rfl).symm d) = ix2 e d := funext fun a => Fin.ext (by
    match a with
    | ⟨0, _⟩ => exact rhs_qw_0 _ _
    | ⟨1, _⟩ => exact (rhs_qw_1 _ _).trans hk)
  rw [el, er]

/-- The left operand's index: the output's row on axis 0 … -/
theorem lhs_qk_0 (j : S256x2048.Idx) (q : dot_S256x1024_S2048x1024_S256x2048_1_1_0_0_n_n.contr.Idx) :
    (dot_S256x1024_S2048x1024_S256x2048_1_1_0_0_n_n.lhsIdx j q 0).val = (j 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
/-- … and the contraction coordinate on axis 1. -/
theorem lhs_qk_1 (j : S256x2048.Idx) (q : dot_S256x1024_S2048x1024_S256x2048_1_1_0_0_n_n.contr.Idx) :
    (dot_S256x1024_S2048x1024_S256x2048_1_1_0_0_n_n.lhsIdx j q 1).val = (q ⟨0, by decide⟩).val :=
  dot_S256x1024_S2048x1024_S256x2048_1_1_0_0_n_n.lhsIdx_val_of_single rfl j q
/-- The right operand's index: the output's column on axis 0 … -/
theorem rhs_qk_0 (j : S256x2048.Idx) (q : dot_S256x1024_S2048x1024_S256x2048_1_1_0_0_n_n.contr.Idx) :
    (dot_S256x1024_S2048x1024_S256x2048_1_1_0_0_n_n.rhsIdx j q 0).val = (j 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
/-- … and the contraction coordinate on axis 1. -/
theorem rhs_qk_1 (j : S256x2048.Idx) (q : dot_S256x1024_S2048x1024_S256x2048_1_1_0_0_n_n.contr.Idx) :
    (dot_S256x1024_S2048x1024_S256x2048_1_1_0_0_n_n.rhsIdx j q 1).val = (q ⟨0, by decide⟩).val :=
  dot_S256x1024_S2048x1024_S256x2048_1_1_0_0_n_n.rhsIdx_val_of_single rfl j q

/-- Projected query × contextᵀ: contracts the second axis of both. -/
theorem dot_qk (l : FVec Ideal S256x1024 .bf16) (r : FVec Ideal S2048x1024 .bf16) (i : Fin 256) (k : Fin 2048) :
    matmul dot_S256x1024_S2048x1024_S256x2048_1_1_0_0_n_n none l r (constant (F := Ideal) S256x2048 .f32 0x00000000#32) (ix2 i k)
      = ∑ d : Fin 1024, l (ix2 i d) * r (ix2 k d) := by
  simp only [matmul]
  rw [Ideal.matmul_constant_zero_apply, ← Equiv.sum_comp (contrEquiv1 dot_S256x1024_S2048x1024_S256x2048_1_1_0_0_n_n 1024 rfl rfl).symm]
  refine Finset.sum_congr rfl fun d _ => ?_
  have hk := contrEquiv1_symm_val dot_S256x1024_S2048x1024_S256x2048_1_1_0_0_n_n 1024 rfl rfl d
  have el : dot_S256x1024_S2048x1024_S256x2048_1_1_0_0_n_n.lhsIdx (ix2 i k) ((contrEquiv1 dot_S256x1024_S2048x1024_S256x2048_1_1_0_0_n_n 1024 rfl rfl).symm d) = ix2 i d := funext fun a => Fin.ext (by
    match a with
    | ⟨0, _⟩ => exact lhs_qk_0 _ _
    | ⟨1, _⟩ => exact (lhs_qk_1 _ _).trans hk)
  have er : dot_S256x1024_S2048x1024_S256x2048_1_1_0_0_n_n.rhsIdx (ix2 i k) ((contrEquiv1 dot_S256x1024_S2048x1024_S256x2048_1_1_0_0_n_n 1024 rfl rfl).symm d) = ix2 k d := funext fun a => Fin.ext (by
    match a with
    | ⟨0, _⟩ => exact rhs_qk_0 _ _
    | ⟨1, _⟩ => exact (rhs_qk_1 _ _).trans hk)
  rw [el, er]

/-- The left operand's index: the output's row on axis 0 … -/
theorem lhs_pv_0 (j : S256x1024.Idx) (q : dot_S256x2048_S2048x1024_S256x1024_1_0_0_1_n_n.contr.Idx) :
    (dot_S256x2048_S2048x1024_S256x1024_1_0_0_1_n_n.lhsIdx j q 0).val = (j 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
/-- … and the contraction coordinate on axis 1. -/
theorem lhs_pv_1 (j : S256x1024.Idx) (q : dot_S256x2048_S2048x1024_S256x1024_1_0_0_1_n_n.contr.Idx) :
    (dot_S256x2048_S2048x1024_S256x1024_1_0_0_1_n_n.lhsIdx j q 1).val = (q ⟨0, by decide⟩).val :=
  dot_S256x2048_S2048x1024_S256x1024_1_0_0_1_n_n.lhsIdx_val_of_single rfl j q
/-- The right operand's index: the output's column on axis 1 … -/
theorem rhs_pv_1 (j : S256x1024.Idx) (q : dot_S256x2048_S2048x1024_S256x1024_1_0_0_1_n_n.contr.Idx) :
    (dot_S256x2048_S2048x1024_S256x1024_1_0_0_1_n_n.rhsIdx j q 1).val = (j 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- … and the contraction coordinate on axis 0. -/
theorem rhs_pv_0 (j : S256x1024.Idx) (q : dot_S256x2048_S2048x1024_S256x1024_1_0_0_1_n_n.contr.Idx) :
    (dot_S256x2048_S2048x1024_S256x1024_1_0_0_1_n_n.rhsIdx j q 0).val = (q ⟨0, by decide⟩).val :=
  dot_S256x2048_S2048x1024_S256x1024_1_0_0_1_n_n.rhsIdx_val_of_single rfl j q

/-- Weights × context: contracts the weights' second axis with the context's first. -/
theorem dot_pv (l : FVec Ideal S256x2048 .bf16) (r : FVec Ideal S2048x1024 .bf16) (i : Fin 256) (d : Fin 1024) :
    matmul dot_S256x2048_S2048x1024_S256x1024_1_0_0_1_n_n none l r (constant (F := Ideal) S256x1024 .f32 0x00000000#32) (ix2 i d)
      = ∑ k : Fin 2048, l (ix2 i k) * r (ix2 k d) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 i d) ((contrEquiv1 dot_S256x2048_S2048x1024_S256x1024_1_0_0_1_n_n 2048 rfl rfl).symm k) = ix2 i k := funext fun a => Fin.ext (by
    match a with
    | ⟨0, _⟩ => exact lhs_pv_0 _ _
    | ⟨1, _⟩ => exact (lhs_pv_1 _ _).trans hk)
  have er : dot_S256x2048_S2048x1024_S256x1024_1_0_0_1_n_n.rhsIdx (ix2 i d) ((contrEquiv1 dot_S256x2048_S2048x1024_S256x1024_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-- The left operand's index: the output's row on axis 0 … -/
theorem lhs_cw_0 (j : S256x1024.Idx) (q : dot_S256x2048_S1024x2048_S256x1024_1_1_0_0_n_n.contr.Idx) :
    (dot_S256x2048_S1024x2048_S256x1024_1_1_0_0_n_n.lhsIdx j q 0).val = (j 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- … and the contraction coordinate on axis 1. -/
theorem lhs_cw_1 (j : S256x1024.Idx) (q : dot_S256x2048_S1024x2048_S256x1024_1_1_0_0_n_n.contr.Idx) :
    (dot_S256x2048_S1024x2048_S256x1024_1_1_0_0_n_n.lhsIdx j q 1).val = (q ⟨0, by decide⟩).val :=
  dot_S256x2048_S1024x2048_S256x1024_1_1_0_0_n_n.lhsIdx_val_of_single rfl j q
/-- The right operand's index: the output's column on axis 0 … -/
theorem rhs_cw_0 (j : S256x1024.Idx) (q : dot_S256x2048_S1024x2048_S256x1024_1_1_0_0_n_n.contr.Idx) :
    (dot_S256x2048_S1024x2048_S256x1024_1_1_0_0_n_n.rhsIdx j q 0).val = (j 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- … and the contraction coordinate on axis 1. -/
theorem rhs_cw_1 (j : S256x1024.Idx) (q : dot_S256x2048_S1024x2048_S256x1024_1_1_0_0_n_n.contr.Idx) :
    (dot_S256x2048_S1024x2048_S256x1024_1_1_0_0_n_n.rhsIdx j q 1).val = (q ⟨0, by decide⟩).val :=
  dot_S256x2048_S1024x2048_S256x1024_1_1_0_0_n_n.rhsIdx_val_of_single rfl j q

/-- Joined row × `W_out`ᵀ: contracts the second axis of both. -/
theorem dot_cw (l : FVec Ideal S256x2048 .bf16) (r : FVec Ideal S1024x2048 .bf16) (i : Fin 256) (d : Fin 1024) :
    matmul dot_S256x2048_S1024x2048_S256x1024_1_1_0_0_n_n none l r (constant (F := Ideal) S256x1024 .f32 0x00000000#32) (ix2 i d)
      = ∑ f : Fin 2048, l (ix2 i f) * r (ix2 d f) := by
  simp only [matmul]
  rw [Ideal.matmul_constant_zero_apply, ← Equiv.sum_comp (contrEquiv1 dot_S256x2048_S1024x2048_S256x1024_1_1_0_0_n_n 2048 rfl rfl).symm]
  refine Finset.sum_congr rfl fun f _ => ?_
  have hk := contrEquiv1_symm_val dot_S256x2048_S1024x2048_S256x1024_1_1_0_0_n_n 2048 rfl rfl f
  have el : dot_S256x2048_S1024x2048_S256x1024_1_1_0_0_n_n.lhsIdx (ix2 i d) ((contrEquiv1 dot_S256x2048_S1024x2048_S256x1024_1_1_0_0_n_n 2048 rfl rfl).symm f) = ix2 i f := funext fun a => Fin.ext (by
    match a with
    | ⟨0, _⟩ => exact lhs_cw_0 _ _
    | ⟨1, _⟩ => exact (lhs_cw_1 _ _).trans hk)
  have er : dot_S256x2048_S1024x2048_S256x1024_1_1_0_0_n_n.rhsIdx (ix2 i d) ((contrEquiv1 dot_S256x2048_S1024x2048_S256x1024_1_1_0_0_n_n 2048 rfl rfl).symm f) = ix2 d f := funext fun a => Fin.ext (by
    match a with
    | ⟨0, _⟩ => exact rhs_cw_0 _ _
    | ⟨1, _⟩ => exact (rhs_cw_1 _ _).trans hk)
  rw [el, er]

end Cert.Attn.KOps

end
-- ==== Proof.KRows.lean ====
/-
  The kernel body's row reductions and its column broadcast, read at an index on the extended reals: the row
  maximum is the fold of `max` from `-∞` over the row's 2048 entries, the row sum their finite sum, and a column of
  256 numbers broadcast along the rows reads back the row's number.
-/
import proofs.«131159_j50233937494279_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Attn.KOps

open Cert.KernelIdeal Idealize.ShloMosaic Idealize.ShloMosaic.ValueIdx

/-- The reduced index `i` with column `k` put back on axis 1 is (i, k). -/
theorem lift_row (h : S256x2048.Reduces [1] S256) (i : Fin 256) (k : Fin (S256x2048.size 1)) :
    h.lift (ix1 i) k = ix2 i (⟨k.val, k.isLt⟩ : Fin 2048) := by
  funext c; apply Fin.ext
  fin_cases c <;> rfl

theorem rowmax_at (v : FVec Ideal S256x2048 .f32) (h : S256x2048.Reduces [1] S256) (hφ : FKind.Formats .f32)
    (hacc : (0xFF800000#32 : BitVec 32) = FKind.maximumf.neutral .f32 hφ) (i : Fin 256) :
    multiReduction (F := Ideal) .maximumf [1] S256 v 0xFF800000#32 h hφ hacc (ix1 i)
      = (Finset.univ : Finset (Fin 2048)).fold max (Ideal.ofBits .f32 0xFF800000#32) (fun k => v (ix2 i k)) := by
  refine (Ideal.multiReduction_maximumf_single v _ h hφ hacc (ix1 i)).trans ?_
  have hf : (v ∘ h.lift (ix1 i)) = fun k : Fin 2048 => v (ix2 i k) := funext fun k => congrArg v (lift_row h i k)
  exact congrArg (fun f => Finset.fold max (Ideal.ofBits .f32 0xFF800000#32) f (Finset.univ : Finset (Fin 2048))) hf

theorem rowsum_at (v : FVec Ideal S256x2048 .f32) (h : S256x2048.Reduces [1] S256) (hφ : FKind.Formats .f32)
    (hacc : (0x00000000#32 : BitVec 32) = FKind.add.neutral .f32 hφ) (i : Fin 256) :
    multiReduction (F := Ideal) .add [1] S256 v 0x00000000#32 h hφ hacc (ix1 i)
      = ∑ k : Fin 2048, v (ix2 i k) := by
  refine (Ideal.multiReduction_add_single v _ h hφ hacc (ix1 i)).trans ?_
  exact Finset.sum_congr rfl fun k _ => congrArg v (lift_row h i k)

theorem column_at (v : FVec Ideal S256 .f32) (h1 : S256.ShapeCasts S256x1) (h2 : S256x1.Broadcasts S256x2048)
    (i : Fin 256) (k : Fin 2048) :
    broadcastTo S256x2048 (shapeCast S256x1 v h1) h2 (ix2 i k) = v (ix1 i) := by
  -- the broadcast reads the column at (i, 0): axis 0 is kept, axis 1 is the unit axis
  refine (broadcastTo_apply (shapeCast S256x1 v h1) h2 (ix2 i k) (ix2 i (0 : Fin 1)) fun ax => ?_).trans ?_
  · match ax with
    | ⟨0, _⟩ => rfl
    | ⟨1, _⟩ => rfl
  · -- (i, 0) of the [256, 1] column and i of the [256] vector have the same row-major position
    refine shapeCast_apply v h1 (ix2 i (0 : Fin 1)) (ix1 i) ?_
    rw [Shape.rowMajor_val_two, Shape.rowMajor_val_one]
    show i.val = i.val * 1 + 0
    omega

end Cert.Attn.KOps

end
-- ==== Proof.Payload.lean ====
/-
  The kernel body's two stored values, read at an index: row `r` of the block it writes is the specification's row
  function of row `r` of the query block, the context block and the weight blocks it loaded.
-/
import proofs.«131159_j50233937494279_2_alg».proof.Proof.Gen.KernelIdeal.Skeleton
import proofs.«131159_j50233937494279_2_alg».proof.Proof.Spec
import proofs.«131159_j50233937494279_2_alg».proof.Proof.KDots
import proofs.«131159_j50233937494279_2_alg».proof.Proof.KRows
import Idealize.ShloMosaic.Lib.Pipeline.Value
import Idealize.ShloMosaic.Lib.ValueLayout
import Idealize.ShloMosaic.PureOps.Ideal.Laws

noncomputable section

namespace Cert.Attn.Body

open Cert.KernelIdeal Cert.KernelIdeal.Gen Idealize.ShloMosaic Idealize.ShloMosaic.ValueIdx Cert.Attn

/-! ## The two loaded blocks the products read -/

/-- The context block with its leading unit axis dropped, at context row `k` and feature `d`. -/
theorem pay1_at (x1 : Vec Ideal S1x2048x1024 .bf16) (k : Fin 2048) (d : Fin 1024) :
    k0_pay1 (F := Ideal) x1 (ix2 k d) = x1 (ix3 (0 : Fin 1) k d) := by
  unfold k0_pay1
  exact shapeCast_1ab_ab_apply x1 shapeCasts_S1x2048x1024_S2048x1024 k d

/-- The projected query block (the narrowing to bf16 is the identity on extended reals): row `r`, feature `e`. -/
theorem pay2_at (x0 : Vec Ideal S1x256x1024 .bf16) (x2 : Vec Ideal S1024x1024 .bf16) (r : Fin 256) (e : Fin 1024) :
    k0_pay2 (F := Ideal) x0 x2 (ix2 r e) = rowProj (fun d => x0 (ix3 (0 : Fin 1) r d)) (fun e d => x2 (ix2 e d)) e := by
  unfold k0_pay2 rowProj
  show matmul (F := Ideal) dot_S256x1024_S1024x1024_S256x1024_1_1_0_0_n_n none (shapeCast S256x1024 x0 shapeCasts_S1x256x1024_S256x1024)
      (shapeCast S1024x1024 x2 shapeCasts_S1024x1024_S1024x1024) (constant (F := Ideal) S256x1024 .f32 0x00000000#32) (ix2 r e) = _
  refine (KOps.dot_qw _ _ r e).trans ?_
  refine Finset.sum_congr rfl fun d _ => ?_
  rw [shapeCast_self]
  exact congrArg (· * x2 (ix2 e d)) (shapeCast_1ab_ab_apply x0 shapeCasts_S1x256x1024_S256x1024 r d)

/-- The scores: row `r` of the projected query block against context row `k`. -/
theorem logit_at (x0 : Vec Ideal S1x256x1024 .bf16) (x1 : Vec Ideal S1x2048x1024 .bf16) (x2 : Vec Ideal S1024x1024 .bf16)
    (r : Fin 256) (k : Fin 2048) :
    matmul (F := Ideal) dot_S256x1024_S2048x1024_S256x2048_1_1_0_0_n_n none (k0_pay2 (F := Ideal) x0 x2) (k0_pay1 (F := Ideal) x1)
        (constant (F := Ideal) S256x2048 .f32 0x00000000#32) (ix2 r k)
      = rowLogit (fun d => x0 (ix3 (0 : Fin 1) r d)) (fun e d => x2 (ix2 e d)) (fun k' d => x1 (ix3 (0 : Fin 1) k' d)) k := by
  refine (KOps.dot_qk _ _ r k).trans ?_
  unfold rowLogit
  exact Finset.sum_congr rfl fun d _ => congrArg₂ (· * ·) (pay2_at x0 x2 r d) (pay1_at x1 k d)

/-! ## The row softmax -/

/-- The body's softmax along the rows of a block of scores: the row maximum subtracted, the exponential, the row
    sum, the quotient — the operations of the stored weights after the second product, in the body's own spelling. -/
def softmaxRows (L : FVec Ideal S256x2048 .f32) : FVec Ideal S256x2048 .f32 :=
  divf (exp (subf L (broadcastTo S256x2048 (shapeCast S256x1
      (multiReduction (F := Ideal) .maximumf [1] S256 L 0xFF800000#32 reduces_S256x2048_S256 (.inl rfl) rfl) shapeCasts_S256_S256x1)
      broadcasts_S256x1_S256x2048)))
    (broadcastTo S256x2048 (shapeCast S256x1
      (multiReduction (F := Ideal) .add [1] S256 (exp (subf L (broadcastTo S256x2048 (shapeCast S256x1
        (multiReduction (F := Ideal) .maximumf [1] S256 L 0xFF800000#32 reduces_S256x2048_S256 (.inl rfl) rfl) shapeCasts_S256_S256x1)
        broadcasts_S256x1_S256x2048))) 0x00000000#32 reduces_S256x2048_S256 (.inl rfl) rfl) shapeCasts_S256_S256x1)
      broadcasts_S256x1_S256x2048)

/-- The weights payload is the row softmax of the scores. -/
theorem pay3_eq (x0 : Vec Ideal S1x256x1024 .bf16) (x1 : Vec Ideal S1x2048x1024 .bf16) (x2 : Vec Ideal S1024x1024 .bf16) :
    k0_pay3 (F := Ideal) x0 x1 x2
      = softmaxRows (matmul (F := Ideal) dot_S256x1024_S2048x1024_S256x2048_1_1_0_0_n_n none (k0_pay2 (F := Ideal) x0 x2)
          (k0_pay1 (F := Ideal) x1) (constant (F := Ideal) S256x2048 .f32 0x00000000#32)) := rfl

/-- Row `r` of the row softmax of a block whose row `r` is `ℓ`: the softmax of `ℓ`, the maximum folded from `-∞`. -/
theorem softmaxRows_at (L : FVec Ideal S256x2048 .f32) (r : Fin 256) (ℓ : Fin 2048 → EReal) (hℓ : ∀ k, L (ix2 r k) = ℓ k)
    (k : Fin 2048) :
    softmaxRows L (ix2 r k)
      = Ideal.div (Ideal.exp (ℓ k - (Finset.univ : Finset (Fin 2048)).fold max (Ideal.ofBits .f32 0xFF800000#32) ℓ))
          (∑ k' : Fin 2048, Ideal.exp (ℓ k' - (Finset.univ : Finset (Fin 2048)).fold max (Ideal.ofBits .f32 0xFF800000#32) ℓ)) := by
  have hf : (fun k' => L (ix2 r k')) = ℓ := funext hℓ
  -- the column of row maxima, read in row r
  have hm : ∀ k', broadcastTo S256x2048 (shapeCast S256x1
      (multiReduction (F := Ideal) .maximumf [1] S256 L 0xFF800000#32 reduces_S256x2048_S256 (.inl rfl) rfl) shapeCasts_S256_S256x1)
      broadcasts_S256x1_S256x2048 (ix2 r k')
        = (Finset.univ : Finset (Fin 2048)).fold max (Ideal.ofBits .f32 0xFF800000#32) ℓ := fun k' =>
    (KOps.column_at _ _ _ r k').trans ((KOps.rowmax_at L _ _ _ r).trans
      (congrArg (fun f => (Finset.univ : Finset (Fin 2048)).fold max (Ideal.ofBits .f32 0xFF800000#32) f) hf))
  -- the shifted exponentials of row r
  have he : ∀ k', exp (subf L (broadcastTo S256x2048 (shapeCast S256x1
      (multiReduction (F := Ideal) .maximumf [1] S256 L 0xFF800000#32 reduces_S256x2048_S256 (.inl rfl) rfl) shapeCasts_S256_S256x1)
      broadcasts_S256x1_S256x2048)) (ix2 r k')
        = Ideal.exp (ℓ k' - (Finset.univ : Finset (Fin 2048)).fold max (Ideal.ofBits .f32 0xFF800000#32) ℓ) := fun k' =>
    congrArg Ideal.exp (congrArg₂ (· - ·) (hℓ k') (hm k'))
  -- the column of row sums, read in row r
  have hs : broadcastTo S256x2048 (shapeCast S256x1
      (multiReduction (F := Ideal) .add [1] S256 (exp (subf L (broadcastTo S256x2048 (shapeCast S256x1
        (multiReduction (F := Ideal) .maximumf [1] S256 L 0xFF800000#32 reduces_S256x2048_S256 (.inl rfl) rfl) shapeCasts_S256_S256x1)
        broadcasts_S256x1_S256x2048))) 0x00000000#32 reduces_S256x2048_S256 (.inl rfl) rfl) shapeCasts_S256_S256x1)
      broadcasts_S256x1_S256x2048 (ix2 r k)
        = ∑ k' : Fin 2048, Ideal.exp (ℓ k' - (Finset.univ : Finset (Fin 2048)).fold max (Ideal.ofBits .f32 0xFF800000#32) ℓ) :=
    (KOps.column_at _ _ _ r k).trans ((KOps.rowsum_at _ _ _ _ r).trans (Finset.sum_congr rfl fun k' _ => he k'))
  exact congrArg₂ Ideal.div (he k) hs

/-- The weights payload at row `r`, context row `k`. -/
theorem pay3_at (x0 : Vec Ideal S1x256x1024 .bf16) (x1 : Vec Ideal S1x2048x1024 .bf16) (x2 : Vec Ideal S1024x1024 .bf16)
    (r : Fin 256) (k : Fin 2048) :
    k0_pay3 (F := Ideal) x0 x1 x2 (ix2 r k)
      = rowProb (fun d => x0 (ix3 (0 : Fin 1) r d)) (fun e d => x2 (ix2 e d)) (fun k' d => x1 (ix3 (0 : Fin 1) k' d)) k := by
  rw [pay3_eq]
  exact softmaxRows_at _ r _ (logit_at x0 x1 x2 r) k

/-- The stored attention weights, at row `r` and context row `k` of the block. -/
theorem pay4_apply (x0 : Vec Ideal S1x256x1024 .bf16) (x1 : Vec Ideal S1x2048x1024 .bf16) (x2 : Vec Ideal S1024x1024 .bf16)
    (r : Fin 256) (k : Fin 2048) :
    k0_pay4 (F := Ideal) x0 x1 x2 (ix3 (0 : Fin 1) r k)
      = rowProb (fun d => x0 (ix3 (0 : Fin 1) r d)) (fun e d => x2 (ix2 e d)) (fun k' d => x1 (ix3 (0 : Fin 1) k' d)) k := by
  unfold k0_pay4
  exact (shapeCast_ab_1ab_apply _ shapeCasts_S256x2048_S1x256x2048 (0 : Fin 1) r k).trans (pay3_at x0 x1 x2 r k)

/-! ## The output: weighted average, join, second projection, `tanh` -/

/-- The weighted average of the context rows (the weights narrowed to bf16: the identity here): row `r`, feature `d`. -/
theorem ctx_at (x0 : Vec Ideal S1x256x1024 .bf16) (x1 : Vec Ideal S1x2048x1024 .bf16) (x2 : Vec Ideal S1024x1024 .bf16)
    (r : Fin 256) (d : Fin 1024) :
    matmul (F := Ideal) dot_S256x2048_S2048x1024_S256x1024_1_0_0_1_n_n none
        (truncf .bf16 (k0_pay3 (F := Ideal) x0 x1 x2) bitsLt_bf16_f32) (k0_pay1 (F := Ideal) x1)
        (constant (F := Ideal) S256x1024 .f32 0x00000000#32) (ix2 r d)
      = rowCtx (fun d => x0 (ix3 (0 : Fin 1) r d)) (fun e d => x2 (ix2 e d)) (fun k' d => x1 (ix3 (0 : Fin 1) k' d)) d := by
  refine (KOps.dot_pv _ _ r d).trans ?_
  unfold rowCtx
  exact Finset.sum_congr rfl fun k _ => congrArg₂ (· * ·) (pay3_at x0 x1 x2 r k) (pay1_at x1 k d)

/-- Two `[256, 1024]` blocks joined along the columns, read left of column 1024: the first block. -/
theorem cat_left (A B : FVec Ideal S256x1024 .bf16) (r : Fin 256) (f : Fin 2048) (hf : f.val < 1024) :
    concatenate S256x2048 1 [⟨S256x1024, A⟩, ⟨S256x1024, B⟩] concatenates_S256x1024_S256x1024_S256x2048_d1 (ix2 r f)
      = A (ix2 r (⟨f.val, hf⟩ : Fin 1024)) :=
  concatenate_pair_apply_left 1 A B concatenates_S256x1024_S256x1024_S256x2048_d1 (ix2 r f) rfl (ix2 r (⟨f.val, hf⟩ : Fin 1024))
    (fun b => match b with | ⟨0, _⟩ => rfl | ⟨1, _⟩ => rfl)

/-- … and from column 1024 on: the second block, 1024 columns back. -/
theorem cat_right (A B : FVec Ideal S256x1024 .bf16) (r : Fin 256) (f : Fin 2048) (hf : ¬ f.val < 1024) :
    concatenate S256x2048 1 [⟨S256x1024, A⟩, ⟨S256x1024, B⟩] concatenates_S256x1024_S256x1024_S256x2048_d1 (ix2 r f)
      = B (ix2 r (⟨f.val - 1024, by have := f.isLt; omega⟩ : Fin 1024)) :=
  concatenate_pair_apply_right 1 A B concatenates_S256x1024_S256x1024_S256x2048_d1 (ix2 r f) rfl rfl
    (ix2 r (⟨f.val - 1024, by have := f.isLt; omega⟩ : Fin 1024))
    (fun b => match b with
      | ⟨0, _⟩ => fun _ => rfl
      | ⟨1, _⟩ => fun hb => absurd rfl hb)
    (by show f.val - 1024 + 1024 = f.val; omega)

/-- The joined block — the weighted average (narrowed to bf16: the identity here), then the projected query — at row
    `r`, column `f`. -/
theorem cat_at (x0 : Vec Ideal S1x256x1024 .bf16) (x1 : Vec Ideal S1x2048x1024 .bf16) (x2 : Vec Ideal S1024x1024 .bf16)
    (r : Fin 256) (f : Fin 2048) :
    concatenate S256x2048 1
        [⟨S256x1024, truncf .bf16 (matmul (F := Ideal) dot_S256x2048_S2048x1024_S256x1024_1_0_0_1_n_n none
            (truncf .bf16 (k0_pay3 (F := Ideal) x0 x1 x2) bitsLt_bf16_f32) (k0_pay1 (F := Ideal) x1)
            (constant (F := Ideal) S256x1024 .f32 0x00000000#32)) bitsLt_bf16_f32⟩,
          ⟨S256x1024, k0_pay2 (F := Ideal) x0 x2⟩]
        concatenates_S256x1024_S256x1024_S256x2048_d1 (ix2 r f)
      = rowCat (fun d => x0 (ix3 (0 : Fin 1) r d)) (fun e d => x2 (ix2 e d)) (fun k' d => x1 (ix3 (0 : Fin 1) k' d)) f := by
  unfold rowCat
  by_cases hf : f.val < 1024
  · rw [dif_pos hf]
    exact (cat_left _ _ r f hf).trans (ctx_at x0 x1 x2 r ⟨f.val, hf⟩)
  · rw [dif_neg hf]
    exact (cat_right _ _ r f hf).trans (pay2_at x0 x2 r ⟨f.val - 1024, by have := f.isLt; omega⟩)

/-- The stored output, at row `r` and feature `d` of the block. -/
theorem pay5_apply (x0 : Vec Ideal S1x256x1024 .bf16) (x1 : Vec Ideal S1x2048x1024 .bf16) (x2 : Vec Ideal S1024x1024 .bf16)
    (x3 : Vec Ideal S1024x2048 .bf16) (r : Fin 256) (d : Fin 1024) :
    k0_pay5 (F := Ideal) x0 x1 x2 x3 (ix3 (0 : Fin 1) r d)
      = rowOut (fun d' => x0 (ix3 (0 : Fin 1) r d')) (fun e d' => x2 (ix2 e d')) (fun k' d' => x1 (ix3 (0 : Fin 1) k' d'))
          (fun e f => x3 (ix2 e f)) d := by
  unfold k0_pay5 rowOut
  refine (shapeCast_ab_1ab_apply _ shapeCasts_S256x1024_S1x256x1024 (0 : Fin 1) r d).trans ?_
  refine congrArg Ideal.tanh ?_
  refine (KOps.dot_cw _ _ r d).trans ?_
  refine Finset.sum_congr rfl fun f _ => ?_
  rw [shapeCast_self]
  exact congrArg (· * x3 (ix2 d f)) (cat_at x0 x1 x2 r f)

end Cert.Attn.Body

end
-- ==== Proof.HostPre.lean ====
/-
  The arrays the kernel's windows stage, as the region finds them: the host lines before the region re-lay the query
  and context arrays batch-major and change float formats (the identity on the extended reals).
-/
import proofs.«131159_j50233937494279_2_alg».proof.Proof.Gen.KernelIdeal.Frame
import Idealize.ShloMosaic.Lib.Pipeline.Value
import Idealize.ShloMosaic.Lib.ValueIdx
import Idealize.ShloMosaic.Lib.StableHlo.Run

noncomputable section

namespace Cert.Attn.Entry

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The array window 0 stages, whole: the query array re-laid batch-major, its float format changed. -/
theorem V_v1_arr (c : Dev nD) :
    @Eq (S16x1024x1024.Idx → EReal) (V m c main_v1)
      (truncf (F := Ideal) .bf16 (transpose S16x1024x1024 [1, 0, 2] (m ((c : Thread nD τ).loc main_arg0) : S1024x16x1024.Idx → EReal) transposes_S1024x16x1024_S16x1024x1024_1_0_2) bitsLt_bf16_f32) := by
  show StableHlo.after hostOps0 (fun b => m (c, b)) (Proc.devRef .tc main_v1) = _
  after_results

/-- The array window 1 stages, whole: the context array re-laid batch-major, its float format changed. -/
theorem V_v3_arr (c : Dev nD) :
    @Eq (S16x2048x1024.Idx → EReal) (V m c main_v3)
      (truncf (F := Ideal) .bf16 (transpose S16x2048x1024 [1, 0, 2] (m ((c : Thread nD τ).loc main_arg1) : S2048x16x1024.Idx → EReal) transposes_S2048x16x1024_S16x2048x1024_1_0_2) bitsLt_bf16_f32) := by
  show StableHlo.after hostOps0 (fun b => m (c, b)) (Proc.devRef .tc main_v3) = _
  after_results

/-- The array window 2 stages, whole: `W_in` with its float format changed. -/
theorem V_v4_arr (c : Dev nD) :
    @Eq (S1024x1024.Idx → EReal) (V m c main_v4)
      (truncf (F := Ideal) .bf16 (m ((c : Thread nD τ).loc main_arg2) : S1024x1024.Idx → EReal) bitsLt_bf16_f32) := by
  show StableHlo.after hostOps0 (fun b => m (c, b)) (Proc.devRef .tc main_v4) = _
  after_results

/-- The array window 3 stages, whole: `W_out` with its float format changed. -/
theorem V_v5_arr (c : Dev nD) :
    @Eq (S1024x2048.Idx → EReal) (V m c main_v5)
      (truncf (F := Ideal) .bf16 (m ((c : Thread nD τ).loc main_arg3) : S1024x2048.Idx → EReal) bitsLt_bf16_f32) := by
  show StableHlo.after hostOps0 (fun b => m (c, b)) (Proc.devRef .tc main_v5) = _
  after_results

/-- Window 0's array: the query array batch-major. -/
theorem V_v1 (c : Dev nD) (b : Fin 16) (r : Fin 1024) (d : Fin 1024) :
    V m c main_v1 (ix3 b r d) = m ((c : Thread nD τ).loc main_arg0) (ix3 r b d) := by
  rw [V_v1_arr m c]
  -- the format change is the identity on the extended reals; the transpose swaps the first two coordinates
  exact transpose_apply [1, 0, 2] _ transposes_S1024x16x1024_S16x1024x1024_1_0_2 (ix3 b r d) (ix3 r b d) (fun a => match a with
    | ⟨0, _⟩ => rfl
    | ⟨1, _⟩ => rfl
    | ⟨2, _⟩ => rfl)

/-- Window 1's array: the context array batch-major. -/
theorem V_v3 (c : Dev nD) (b : Fin 16) (k : Fin 2048) (d : Fin 1024) :
    V m c main_v3 (ix3 b k d) = m ((c : Thread nD τ).loc main_arg1) (ix3 k b d) := by
  rw [V_v3_arr m c]
  exact transpose_apply [1, 0, 2] _ transposes_S2048x16x1024_S16x2048x1024_1_0_2 (ix3 b k d) (ix3 k b d) (fun a => match a with
    | ⟨0, _⟩ => rfl
    | ⟨1, _⟩ => rfl
    | ⟨2, _⟩ => rfl)

/-- Window 2's array: `W_in`. -/
theorem V_v4 (c : Dev nD) (e : Fin 1024) (d : Fin 1024) :
    V m c main_v4 (ix2 e d) = m ((c : Thread nD τ).loc main_arg2) (ix2 e d) := by
  rw [V_v4_arr m c]
  rfl

/-- Window 3's array: `W_out`. -/
theorem V_v5 (c : Dev nD) (e : Fin 1024) (f : Fin 2048) :
    V m c main_v5 (ix2 e f) = m ((c : Thread nD τ).loc main_arg3) (ix2 e f) := by
  rw [V_v5_arr m c]
  rfl

/-- The host line after the region re-lays the kernel's first result row-major again: the final output at (row, batch,
    feature) is the first result array of the region at (batch, row, feature). -/
theorem tail_v7 (c : Dev nD) (r : Fin 1024) (b : Fin 16) (d : Fin 1024) :
    Pipeline.afterTail₀ cfgs (dats m) 0 (V0 m) [hostOps1] c main_v7 (ix3 r b d)
      = (dats m 0 c).arrAt 4 cfg0.N (ix3 b r d) := by
  unfold Pipeline.afterTail₀
  show StableHlo.after hostOps1 _ (Proc.devRef .tc main_v7) (ix3 r b d) = _
  after_results
  -- the transpose back swaps the first two coordinates; what it reads is the region's array 4 as the region left it
  refine (transpose_apply [1, 0, 2] _ transposes_S16x1024x1024_S1024x16x1024_1_0_2 (ix3 r b d) (ix3 b r d) (fun a => match a with
    | ⟨0, _⟩ => rfl
    | ⟨1, _⟩ => rfl
    | ⟨2, _⟩ => rfl)).trans ?_
  exact congrFun (Pipeline.withArrays_arr spec0 launch0.win.arr_inj c (V0 m c) (fun w => (dats m 0 c).arrAt w (cfgs 0).N) 4) (ix3 b r d)

end Cert.Attn.Entry

end
-- ==== Proof.Blocks.lean ====
/-
  From blocks to arrays. Grid point `t` = (batch `b`, tile `j`) stages rows `256·j … 256·j + 255` of batch entry
  `b` of the batch-major query array, all 2048 context rows of batch entry `b`, and both weight matrices whole; it
  writes back rows `256·j …` of batch entry `b` of each result array. Row `r` of what it writes is the row function
  of the specification at query row `256·j + r`, so each written block is that block of ONE whole-array function;
  the 64 blocks tile each result array, which therefore ends holding that function.
-/
import proofs.«131159_j50233937494279_2_alg».proof.Proof.Gen.KernelIdeal.Frame
import proofs.«131159_j50233937494279_2_alg».proof.Proof.Spec
import proofs.«131159_j50233937494279_2_alg».proof.Proof.Payload
import proofs.«131159_j50233937494279_2_alg».proof.Proof.HostPre
import Idealize.ShloMosaic.Lib.Pipeline.Value

set_option maxRecDepth 16384

noncomputable section

namespace Cert.Attn.Blocks

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the 64 grid points: the query window and both result windows move together
    (batch entry, then row tile); the context window follows the batch entry only; the weights stay. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) ≤ 15 ∧ win0_5.index t (1 : Fin 3) ≤ 3 ∧ win0_5.index t (2 : Fin 3) = 0 :=
  (by decide +kernel : ∀ t : Fin grid0.N, _)

/-- Every (batch entry, row tile) is some grid point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## The input blocks, read where the point's coordinates say -/

/-- Row `r` of the query block at point `t` is query row `256·j + r` of batch entry `b`. -/
theorem qblk_at (c : Dev nD) (t : Fin cfg0.N) (r : Fin 256) (d : Fin 1024) (b' : Fin 16) (r' : Fin 1024)
    (hb : win0_0.index t (0 : Fin 3) = b'.val) (hr : win0_0.index t (1 : Fin 3) * 256 + r.val = r'.val)
    (h2 : win0_0.index t (2 : Fin 3) = 0) :
    iblk m c 0 t (ix3 (0 : Fin 1) r d) = m ((c : Thread nD τ).loc main_arg0) (ix3 r' b' d) := by
  show V m c main_v1 (((cfg0.win 0).blk t).view.emb (ix3 (0 : Fin 1) r d)) = _
  have e : ((cfg0.win 0).blk t).view.emb (ix3 (0 : Fin 1) r d) = ix3 b' r' d := by
    funext a; apply Fin.ext
    match a with
    | ⟨0, _⟩ => show win0_0.index t (0 : Fin 3) * 1 + 1 * 0 = b'.val; omega
    | ⟨1, _⟩ => show win0_0.index t (1 : Fin 3) * 256 + 1 * r.val = r'.val; omega
    | ⟨2, _⟩ => show win0_0.index t (2 : Fin 3) * 1024 + 1 * d.val = d.val; omega
  rw [e]
  exact Entry.V_v1 m c b' r' d

/-- Row `k` of the context block at point `t` is context row `k` of batch entry `b`. -/
theorem cblk_at (c : Dev nD) (t : Fin cfg0.N) (k : Fin 2048) (d : Fin 1024) (b' : Fin 16)
    (hb : win0_1.index t (0 : Fin 3) = b'.val) (h1 : win0_1.index t (1 : Fin 3) = 0) (h2 : win0_1.index t (2 : Fin 3) = 0) :
    iblk m c 1 t (ix3 (0 : Fin 1) k d) = m ((c : Thread nD τ).loc main_arg1) (ix3 k b' d) := by
  show V m c main_v3 (((cfg0.win 1).blk t).view.emb (ix3 (0 : Fin 1) k d)) = _
  have e : ((cfg0.win 1).blk t).view.emb (ix3 (0 : Fin 1) k d) = ix3 b' k d := by
    funext a; apply Fin.ext
    match a with
    | ⟨0, _⟩ => show win0_1.index t (0 : Fin 3) * 1 + 1 * 0 = b'.val; omega
    | ⟨1, _⟩ => show win0_1.index t (1 : Fin 3) * 2048 + 1 * k.val = k.val; omega
    | ⟨2, _⟩ => show win0_1.index t (2 : Fin 3) * 1024 + 1 * d.val = d.val; omega
  rw [e]
  exact Entry.V_v3 m c b' k d

/-- The first weight block is `W_in`. -/
theorem winblk_at (c : Dev nD) (t : Fin cfg0.N) (e' : Fin 1024) (d : Fin 1024)
    (h0 : win0_2.index t (0 : Fin 2) = 0) (h1 : win0_2.index t (1 : Fin 2) = 0) :
    iblk m c 2 t (ix2 e' d) = m ((c : Thread nD τ).loc main_arg2) (ix2 e' d) := by
  show V m c main_v4 (((cfg0.win 2).blk t).view.emb (ix2 e' d)) = _
  have e : ((cfg0.win 2).blk t).view.emb (ix2 e' d) = ix2 e' d := by
    funext a; apply Fin.ext
    match a with
    | ⟨0, _⟩ => show win0_2.index t (0 : Fin 2) * 1024 + 1 * e'.val = e'.val; omega
    | ⟨1, _⟩ => show win0_2.index t (1 : Fin 2) * 1024 + 1 * d.val = d.val; omega
  rw [e]
  exact Entry.V_v4 m c e' d

/-- The second weight block is `W_out`. -/
theorem woutblk_at (c : Dev nD) (t : Fin cfg0.N) (e' : Fin 1024) (f : Fin 2048)
    (h0 : win0_3.index t (0 : Fin 2) = 0) (h1 : win0_3.index t (1 : Fin 2) = 0) :
    iblk m c 3 t (ix2 e' f) = m ((c : Thread nD τ).loc main_arg3) (ix2 e' f) := by
  show V m c main_v5 (((cfg0.win 3).blk t).view.emb (ix2 e' f)) = _
  have e : ((cfg0.win 3).blk t).view.emb (ix2 e' f) = ix2 e' f := by
    funext a; apply Fin.ext
    match a with
    | ⟨0, _⟩ => show win0_3.index t (0 : Fin 2) * 1024 + 1 * e'.val = e'.val; omega
    | ⟨1, _⟩ => show win0_3.index t (1 : Fin 2) * 2048 + 1 * f.val = f.val; omega
  rw [e]
  exact Entry.V_v5 m c e' f

/-! ## The attention weights (output window 5) -/

/-- WHAT POINT `t` WRITES BACK to the attention-weights array is block `t` of `scoreOf` of the argument arrays. -/
theorem flushed5_eq (c : Dev nD) (t : Fin cfg0.N) :
    (dats m 0 c).flushed 5 t = ((cfg0.win 5).blk t).view.read (Elt Ideal)
      (scoreOf (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero zero3]
  simp only [View.ld_unit_zero (S := S1x256x1024) zero3, View.ld_unit_zero (S := S1x2048x1024) zero3,
    View.ld_unit_zero (S := S1024x1024) zero2]
  obtain ⟨e00, e01, e02, e10, e11, e12, e20, e21, e30, e31, e40, e41, e42, b0, b1, b2⟩ := idx_facts t
  funext j
  obtain ⟨z, r, k, rfl⟩ : ∃ (z : Fin 1) (r : Fin 256) (k : Fin 2048), j = ix3 z r k := ⟨j 0, j 1, j 2, eq_ix3 j⟩
  obtain rfl : z = 0 := Subsingleton.elim _ _
  refine (Body.pay4_apply (iblk m c 0 t) (iblk m c 1 t) (iblk m c 2 t) r k).trans ?_
  have hb : win0_5.index t (0 : Fin 3) < 16 := by omega
  have hr : win0_5.index t (1 : Fin 3) * 256 + r.val < 1024 := by have := r.isLt; omega
  have e : ((cfg0.win 5).blk t).view.emb (ix3 (0 : Fin 1) r k)
      = ix3 (⟨win0_5.index t (0 : Fin 3), hb⟩ : Fin 16) (⟨win0_5.index t (1 : Fin 3) * 256 + r.val, hr⟩ : Fin 1024) k := by
    funext a; apply Fin.ext
    match a with
    | ⟨0, _⟩ => show win0_5.index t (0 : Fin 3) * 1 + 1 * 0 = win0_5.index t (0 : Fin 3); omega
    | ⟨1, _⟩ => show win0_5.index t (1 : Fin 3) * 256 + 1 * r.val = win0_5.index t (1 : Fin 3) * 256 + r.val; omega
    | ⟨2, _⟩ => show win0_5.index t (2 : Fin 3) * 2048 + 1 * k.val = k.val; omega
  show _ = scoreOf _ _ _ (((cfg0.win 5).blk t).view.emb (ix3 (0 : Fin 1) r k))
  rw [e, scoreOf_ix3]
  have hq : (fun d => iblk m c 0 t (ix3 (0 : Fin 1) r d))
      = qRow (m ((c : Thread nD τ).loc main_arg0)) ⟨win0_5.index t (0 : Fin 3), hb⟩ ⟨win0_5.index t (1 : Fin 3) * 256 + r.val, hr⟩ :=
    funext fun d => qblk_at m c t r d _ _ (by show _ = win0_5.index t (0 : Fin 3); omega)
      (by show _ = win0_5.index t (1 : Fin 3) * 256 + r.val; omega) e02
  have hw : (fun e' d => iblk m c 2 t (ix2 e' d)) = mat (m ((c : Thread nD τ).loc main_arg2)) :=
    funext fun e' => funext fun d => winblk_at m c t e' d e20 e21
  have hc : (fun k' d => iblk m c 1 t (ix3 (0 : Fin 1) k' d))
      = cRows (m ((c : Thread nD τ).loc main_arg1)) ⟨win0_5.index t (0 : Fin 3), hb⟩ :=
    funext fun k' => funext fun d => cblk_at m c t k' d _ (by show _ = win0_5.index t (0 : Fin 3); omega) e11 e12
  rw [hq, hw, hc]

/-- An index of the attention-weights array is in point `t`'s block iff each coordinate is in the block's range. -/
theorem mem_blk5 (t : Fin cfg0.N) (i : S16x1024x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v6_1).slice (win0_5.rect t)).set ↔ _
  rw [View.set_slice_whole, Rect.mem_set_unit]
  exact Iff.rfl

/-- The 64 blocks cover the array: row `r` of batch entry `b` is in the block of the point (b, r / 256). -/
theorem cover5 (i : S16x1024x2048.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 2048 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- THE ATTENTION-WEIGHTS ARRAY after the run. -/
theorem final5 (c : Dev nD) : (dats m 0 c).arrAt 5 cfg0.N
    = scoreOf (m ((c : Thread nD τ).loc main_arg0)) (m ((c : Thread nD τ).loc main_arg1)) (m ((c : Thread nD τ).loc main_arg2)) :=
  (dats m 0 c).arrAt_eq_of_cover 5 _ (fun t _ => flushed5_eq m c t) cover5

/-! ## The output, batch-major (output window 4) -/

/-- WHAT POINT `t` WRITES BACK to the batch-major output array is block `t` of `outBatchMajor` of the argument arrays. -/
theorem flushed4_eq (c : Dev nD) (t : Fin cfg0.N) :
    (dats m 0 c).flushed 4 t = ((cfg0.win 4).blk t).view.read (Elt Ideal)
      (outBatchMajor (m ((c : Thread nD τ).loc main_arg0)) (m ((c : Thread nD τ).loc main_arg1)) (m ((c : Thread nD τ).loc main_arg2))
        (m ((c : Thread nD τ).loc main_arg3))) := by
  show (cfg0.win 4).cut (grid0.coords t) ((dats m 0 c).after 4 t) = _
  rw [after0_4]
  unfold out0_4
  rw [View.canon_unit_zero zero3]
  simp only [View.ld_unit_zero (S := S1x256x1024) zero3, View.ld_unit_zero (S := S1x2048x1024) zero3,
    View.ld_unit_zero (S := S1024x1024) zero2, View.ld_unit_zero (S := S1024x2048) zero2]
  obtain ⟨e00, e01, e02, e10, e11, e12, e20, e21, e30, e31, e40, e41, e42, b0, b1, b2⟩ := idx_facts t
  funext j
  obtain ⟨z, r, d, rfl⟩ : ∃ (z : Fin 1) (r : Fin 256) (d : Fin 1024), j = ix3 z r d := ⟨j 0, j 1, j 2, eq_ix3 j⟩
  obtain rfl : z = 0 := Subsingleton.elim _ _
  refine (Body.pay5_apply (iblk m c 0 t) (iblk m c 1 t) (iblk m c 2 t) (iblk m c 3 t) r d).trans ?_
  have hb : win0_5.index t (0 : Fin 3) < 16 := by omega
  have hr : win0_5.index t (1 : Fin 3) * 256 + r.val < 1024 := by have := r.isLt; omega
  have e : ((cfg0.win 4).blk t).view.emb (ix3 (0 : Fin 1) r d)
      = ix3 (⟨win0_5.index t (0 : Fin 3), hb⟩ : Fin 16) (⟨win0_5.index t (1 : Fin 3) * 256 + r.val, hr⟩ : Fin 1024) d := by
    funext a; apply Fin.ext
    match a with
    | ⟨0, _⟩ => show win0_4.index t (0 : Fin 3) * 1 + 1 * 0 = win0_5.index t (0 : Fin 3); omega
    | ⟨1, _⟩ => show win0_4.index t (1 : Fin 3) * 256 + 1 * r.val = win0_5.index t (1 : Fin 3) * 256 + r.val; omega
    | ⟨2, _⟩ => show win0_4.index t (2 : Fin 3) * 1024 + 1 * d.val = d.val; omega
  show _ = outBatchMajor _ _ _ _ (((cfg0.win 4).blk t).view.emb (ix3 (0 : Fin 1) r d))
  rw [e, outBatchMajor_ix3]
  have hq : (fun d' => iblk m c 0 t (ix3 (0 : Fin 1) r d'))
      = qRow (m ((c : Thread nD τ).loc main_arg0)) ⟨win0_5.index t (0 : Fin 3), hb⟩ ⟨win0_5.index t (1 : Fin 3) * 256 + r.val, hr⟩ :=
    funext fun d' => qblk_at m c t r d' _ _ (by show _ = win0_5.index t (0 : Fin 3); omega)
      (by show _ = win0_5.index t (1 : Fin 3) * 256 + r.val; omega) e02
  have hw : (fun e' d' => iblk m c 2 t (ix2 e' d')) = mat (m ((c : Thread nD τ).loc main_arg2)) :=
    funext fun e' => funext fun d' => winblk_at m c t e' d' e20 e21
  have hc : (fun k' d' => iblk m c 1 t (ix3 (0 : Fin 1) k' d'))
      = cRows (m ((c : Thread nD τ).loc main_arg1)) ⟨win0_5.index t (0 : Fin 3), hb⟩ :=
    funext fun k' => funext fun d' => cblk_at m c t k' d' _ (by show _ = win0_5.index t (0 : Fin 3); omega) e11 e12
  have ho : (fun e' f => iblk m c 3 t (ix2 e' f)) = mat (m ((c : Thread nD τ).loc main_arg3)) :=
    funext fun e' => funext fun f => woutblk_at m c t e' f e30 e31
  rw [hq, hw, hc, ho]

theorem mem_blk4 (t : Fin cfg0.N) (i : S16x1024x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v6_0).slice (win0_4.rect t)).set ↔ _
  rw [View.set_slice_whole, Rect.mem_set_unit]
  exact Iff.rfl

theorem cover4 (i : S16x1024x1024.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  obtain ⟨e00, e01, e02, e10, e11, e12, e20, e21, e30, e31, e40, e41, e42, b0, b1, b2⟩ := idx_facts t
  have q0 : win0_5.index t (0 : Fin 3) = (i 0).val := congrFun ht 0
  have q1 : win0_5.index t (1 : Fin 3) = (i 1).val / 256 := congrFun ht 1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- THE BATCH-MAJOR OUTPUT ARRAY after the run. -/
theorem final4 (c : Dev nD) : (dats m 0 c).arrAt 4 cfg0.N
    = outBatchMajor (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

end Cert.Attn.Blocks

end
-- ==== Proof.KernelRun.lean ====
/-
  The idealized kernel's run with both results named: every weakly fair execution terminates with the output array
  at `outOf` and the attention-weights array at `scoreOf` of the launch memory's argument arrays, the arguments
  unchanged. The attention weights are the region's second result array as it ends; the output is the host's
  re-layout (batch-major back to row-major) of the region's first.
-/
import proofs.«131159_j50233937494279_2_alg».proof.Proof.Blocks

noncomputable section

namespace Cert.Attn.KernelRun

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (ρ : Dev nD → PrngReg)

/-- The output after the host's last line: the batch-major result read at the swapped coordinates. -/
theorem tail_eq (c : Dev nD) :
    Pipeline.afterTail₀ cfgs (dats m) 0 (V0 m) [hostOps1] c main_v7
      = outOf (m ((c : Thread nD τ).loc main_arg0)) (m ((c : Thread nD τ).loc main_arg1)) (m ((c : Thread nD τ).loc main_arg2))
          (m ((c : Thread nD τ).loc main_arg3)) := by
  funext i
  obtain ⟨r, b, d, rfl⟩ : ∃ (r : Fin 1024) (b : Fin 16) (d : Fin 1024), i = ix3 r b d := ⟨i 0, i 1, i 2, eq_ix3 i⟩
  rw [Entry.tail_v7 m c r b d, Blocks.final4 m c, outBatchMajor_ix3, outOf_ix3]

theorem run : θ_run defs (onTc (τ := τ) (main (F := Ideal))) ⟨m, fun _ => 0, ρ⟩ fun r => ∀ c : Dev nD,
      r.2.mem ((c.tc : Thread nD τ).loc main_v7)
        = outOf (m ((c : Thread nD τ).loc main_arg0)) (m ((c : Thread nD τ).loc main_arg1)) (m ((c : Thread nD τ).loc main_arg2))
            (m ((c : Thread nD τ).loc main_arg3))
      ∧ r.2.mem ((c.tc : Thread nD τ).loc main_v6_1)
        = scoreOf (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).1 5).trans (Blocks.final5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.KernelRun

end
-- ==== Proof.lean ====
/-
  A single-head attention layer over a batch of 16 sequences — project the 1024 query rows by `W_in`, score them
  against the 2048 context rows, softmax, average the context rows, join with the projected query, project by
  `W_out`, `tanh` — computed by a kernel over 64 grid points (batch entry × tile of 256 query rows, on arrays the host
  first re-lays batch-major) and by a whole-array reference. On the extended reals a change of float format is the
  identity and every sum is an unordered finite sum, so both programs compute, element by element, the same row
  function of one query row, its batch entry's context rows and the two weight matrices (Proof/Spec.lean):

    * Proof/RefIs.lean     the reference's two results are `scoreOf` and `outOf` of its arguments;
    * Proof/Payload.lean   row `r` of what the kernel body stores is the row function of row `r` of its query block;
    * Proof/HostPre.lean   the host lines around the region are re-layouts;
    * Proof/Blocks.lean    the 64 written blocks tile each result array, which ends at one whole-array function;
    * Proof/KernelRun.lean the kernel's run with both results named.

  The only law used between the two sides is `max (−∞) y = y` (the reference takes the row maximum once more against
  `−∞`); nothing needs the inputs finite. The three frames are the generated ones (the reference's is its run with the
  results dropped); the idealization rewrote nothing, so `preserves` is trivial.
-/
import proofs.«131159_j50233937494279_2_alg».proof.Defs
import proofs.«131159_j50233937494279_2_alg».proof.Proof.Gen.Kernel
import proofs.«131159_j50233937494279_2_alg».proof.Proof.Gen.Kernel.Skeleton
import proofs.«131159_j50233937494279_2_alg».proof.Proof.Gen.Kernel.Launch
import proofs.«131159_j50233937494279_2_alg».proof.Proof.Gen.Kernel.Points
import proofs.«131159_j50233937494279_2_alg».proof.Proof.Gen.Kernel.Frame
import proofs.«131159_j50233937494279_2_alg».proof.Proof.Gen.KernelIdeal
import proofs.«131159_j50233937494279_2_alg».proof.Proof.Gen.KernelIdeal.Skeleton
import proofs.«131159_j50233937494279_2_alg».proof.Proof.Gen.KernelIdeal.Launch
import proofs.«131159_j50233937494279_2_alg».proof.Proof.Gen.KernelIdeal.Points
import proofs.«131159_j50233937494279_2_alg».proof.Proof.Gen.KernelIdeal.Frame
import proofs.«131159_j50233937494279_2_alg».proof.Proof.Gen.ReferenceIdeal
import proofs.«131159_j50233937494279_2_alg».proof.Proof.Gen.Pre_finite_inputs
import proofs.«131159_j50233937494279_2_alg».proof.Proof.Gen.ReferenceIdeal.Read
import proofs.«131159_j50233937494279_2_alg».proof.Proof.RefIs
import proofs.«131159_j50233937494279_2_alg».proof.Proof.KernelRun
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the two results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs, run from memories agreeing on the four arguments, end with the output at `outOf` and the attention
    weights at `scoreOf` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.Attn.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v19_eq _ _ _ _).trans (Cert.Attn.Ref.out_eq _ _ _ _)
  · rw [(hagree c).1, (hagree c).2.1, (hagree c).2.2.1]
    exact (Cert.ReferenceIdeal.Read.val_main_v14_eq _ _ _).trans (Cert.Attn.Ref.score_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
